-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S64x128 .f32) (main_arg6 : FVec F S64x128 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S128x64, .f32⟩
  | .hbm, ⟨57, _⟩ => ⟨S128x64, .f32⟩
  | .hbm, ⟨58, _⟩ => ⟨S1x64, .f32⟩
  | .hbm, ⟨59, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S128x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«169631_j38697655336972_1_alg».proof.Proof.LibDotEntry
import proofs.«169631_j38697655336972_1_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibTwoTermLayer.lean ====
/-
  A dense layer with two matrix terms, read at an entry.

  Entry (p, q) of  a·Wl + x·Wr + b  is  (Σₖ a(p, k)·Wl(k, q)) + (Σₖ x(p, k)·Wr(k, q)) + b(q), with or without a
  final maximum with zero.  At exact arithmetic a TensorCore kernel that multiplies each pair into a zero accumulator,
  adds the two products and adds a [1, n] bias row repeated down the rows has this entry, and so has the host's sum of
  two dot_generals and of the bias laid out by two broadcast_in_dim.  The entry depends on row p of the two left
  factors, column q of the two right factors and the bias at q only.
-/
import Idealize.ShloMosaic.Lib.ValueIdx
import Idealize.ShloMosaic.Lib.ValueLayout
import Idealize.ShloMosaic.Lib.Pipeline.Value
import Idealize.ShloMosaic.PureOps.Ideal.Laws
import proofs.«169631_j38697655336972_1_alg».proof.Proof.LibDenseLayer

noncomputable section

namespace Cert.Lib.TwoTermLayer

open Idealize.ShloMosaic Idealize.ShloMosaic.TcCoe Idealize.SL.Sem Idealize.ShloMosaic.ValueIdx Cert.Lib.DenseLayer

variable {m K n : Nat}

/-- Entry (p, q) before any activation: row p of `a` against column q of `wl`, plus row p of `x` against column q of
    `wr`, plus the bias at q. -/
def pre (a x : FVec Ideal ⟨2, ![m, K]⟩ .f32) (wl wr : FVec Ideal ⟨2, ![K, n]⟩ .f32) (b : Fin n → EReal)
    (p : Fin m) (q : Fin n) : EReal :=
  (∑ k : Fin K, a (ix2 p k) * wl (ix2 k q)) + (∑ k : Fin K, x (ix2 p k) * wr (ix2 k q)) + b q

/-- The entry reads row p of the left factors, column q of the right factors and the bias at q, and nothing else. -/
theorem pre_congr {m' : Nat} (a x : FVec Ideal ⟨2, ![m, K]⟩ .f32) (a' x' : FVec Ideal ⟨2, ![m', K]⟩ .f32)
    (wl wr wl' wr' : FVec Ideal ⟨2, ![K, n]⟩ .f32) (b b' : Fin n → EReal) (p : Fin m) (p' : Fin m') (q q' : Fin n)
    (ha : ∀ k, a (ix2 p k) = a' (ix2 p' k)) (hx : ∀ k, x (ix2 p k) = x' (ix2 p' k))
    (hwl : ∀ k, wl (ix2 k q) = wl' (ix2 k q')) (hwr : ∀ k, wr (ix2 k q) = wr' (ix2 k q')) (hb : b q = b' q') :
    pre a x wl wr b p q = pre a' x' wl' wr' b' p' q' := by
  unfold pre
  simp only [ha, hx, hwl, hwr, hb]

/-- The layer without activation, as one array. -/
def linear (a x : FVec Ideal ⟨2, ![m, K]⟩ .f32) (wl wr : FVec Ideal ⟨2, ![K, n]⟩ .f32) (b : Fin n → EReal) :
    FVec Ideal ⟨2, ![m, n]⟩ .f32 :=
  fun i => pre a x wl wr b (i 0) (i 1)

/-- The layer followed by the maximum with zero, as one array. -/
def rectified (a x : FVec Ideal ⟨2, ![m, K]⟩ .f32) (wl wr : FVec Ideal ⟨2, ![K, n]⟩ .f32) (b : Fin n → EReal) :
    FVec Ideal ⟨2, ![m, n]⟩ .f32 :=
  fun i => max (pre a x wl wr b (i 0) (i 1)) (Ideal.ofBits .f32 0x00000000#32)

/-- Equal factors and pointwise equal biases give the same layer. -/
theorem linear_congr {a a' x x' : FVec Ideal ⟨2, ![m, K]⟩ .f32} {wl wl' wr wr' : FVec Ideal ⟨2, ![K, n]⟩ .f32}
    {b b' : Fin n → EReal} (ha : a = a') (hx : x = x') (hwl : wl = wl') (hwr : wr = wr') (hb : ∀ q, b q = b' q) :
    linear a x wl wr b = linear a' x' wl' wr' b' := by
  obtain rfl : b = b' := funext hb
  subst ha hx hwl hwr
  rfl

/-- The same with the maximum with zero. -/
theorem rectified_congr {a a' x x' : FVec Ideal ⟨2, ![m, K]⟩ .f32} {wl wl' wr wr' : FVec Ideal ⟨2, ![K, n]⟩ .f32}
    {b b' : Fin n → EReal} (ha : a = a') (hx : x = x') (hwl : wl = wl') (hwr : wr = wr') (hb : ∀ q, b q = b' q) :
    rectified a x wl wr b = rectified a' x' wl' wr' b' := by
  obtain rfl : b = b' := funext hb
  subst ha hx hwl hwr
  rfl

variable {D : DotDims ⟨2, ![m, K]⟩ ⟨2, ![K, n]⟩ ⟨2, ![m, n]⟩}

/-- The kernel's form at entry (p, q): two products into zero accumulators (the factors of any float formats), added, plus a
    [1, n] bias row repeated down the rows. -/
theorem kernel_entry (hD : IsMatProduct D) {φ₁ φ₂ : FTy} (a x : FVec Ideal ⟨2, ![m, K]⟩ φ₁)
    (wl wr : FVec Ideal ⟨2, ![K, n]⟩ φ₂) (brow : FVec Ideal ⟨2, ![1, n]⟩ .f32)
    (hbc : (⟨2, ![1, n]⟩ : Shape).Broadcasts ⟨2, ![m, n]⟩) (p : Fin m) (q : Fin n) :
    addf (addf (matmul D none a wl (constant (F := Ideal) ⟨2, ![m, n]⟩ .f32 0x00000000#32))
          (matmul D none x wr (constant (F := Ideal) ⟨2, ![m, n]⟩ .f32 0x00000000#32)))
        (broadcastTo ⟨2, ![m, n]⟩ brow hbc) (ix2 p q)
      = (∑ k : Fin K, a (ix2 p k) * wl (ix2 k q)) + (∑ k : Fin K, x (ix2 p k) * wr (ix2 k q)) + brow (ix2 (0 : Fin 1) q) := by
  rw [addf_apply, addf_apply, matmul_entry hD, matmul_entry hD, broadcastTo_1b_ab_apply]

/-- The host's form at entry (p, q): two dot_generals added, plus the bias laid out as a [1, n] row and then as an
    [m, n] matrix. -/
theorem host_entry (hD : IsMatProduct D) (a x : FVec Ideal ⟨2, ![m, K]⟩ .f32) (wl wr : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (addf (Host.dotGeneral (F := Ideal) D none a wl) (Host.dotGeneral (F := Ideal) D none x wr))
        (broadcastInDim ⟨2, ![m, n]⟩ ![0, 1] h₂ (broadcastInDim ⟨2, ![1, n]⟩ ![1] h₁ b)) (ix2 p q)
      = pre a x wl wr (fun q => b (ix1 q)) p q := by
  rw [addf_apply, addf_apply, dotGeneral_entry hD, dotGeneral_entry hD, host_bias_entry]
  rfl

end Cert.Lib.TwoTermLayer

end
-- ==== Proof.Payload.lean ====
/-
  What each of the two kernel bodies stores, read at one entry of the block.

  Both bodies turn a block of rows of the aggregated features and the same rows of the node features into
  (rows of aggregate)·Wl + (rows of features)·Wr + bias, the first body followed by the maximum with zero.  At exact
  arithmetic the changes of float format on the way into the products are the identity, so entry (p, q) of what is stored
  is the two-term layer's entry of the loaded blocks.
-/
import proofs.«169631_j38697655336972_1_alg».proof.Proof.Gen.KernelIdeal.Skeleton
import proofs.«169631_j38697655336972_1_alg».proof.Proof.LibTwoTermLayer

noncomputable section

namespace Cert.KernelIdeal.Hand

open Cert.KernelIdeal Cert.KernelIdeal.Gen Idealize.ShloMosaic Idealize.ShloMosaic.TcCoe Idealize.SL.Sem
open Idealize.ShloMosaic.ValueIdx Cert.Lib.DenseLayer Cert.Lib.TwoTermLayer

/-- The first body's products are plain matrix products: columns of the left factor against rows of the right. -/
theorem mat0 : IsMatProduct dot_S5000x128_S128x128_S5000x128_1_0_0_1_n_n := ⟨rfl, rfl, rfl, rfl, rfl, rfl⟩
/-- So are the second body's. -/
theorem mat1 : IsMatProduct dot_S5000x128_S128x64_S5000x64_1_0_0_1_n_n := ⟨rfl, rfl, rfl, rfl, rfl, rfl⟩

/-- The first body's stored block at (p, q): the layer's entry of the loaded blocks, then the maximum with zero. -/
theorem pay0_entry (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (pre x0 x1 x2 x3 (fun q => x4 (ix2 (0 : Fin 1) q)) p q) (Ideal.ofBits .f32 0x00000000#32) := by
  unfold k0_pay1
  simp only [shapeCast_self]
  refine (maximumf_apply _ _ _).trans ?_
  refine congrArg₂ max ?_ rfl
  exact kernel_entry mat0 _ _ _ _ _ _ p q

/-- The second body's stored block at (p, q): the layer's entry of the loaded blocks. -/
theorem pay1_entry (x0 x1 : Vec Ideal S5000x128 .f32) (x2 x3 : Vec Ideal S128x64 .f32) (x4 : Vec Ideal S1x64 .f32)
    (p : Fin 5000) (q : Fin 64) :
    k1_pay1 (F := Ideal) x0 x1 x2 x3 x4 (ix2 p q) = pre x0 x1 x2 x3 (fun q => x4 (ix2 (0 : Fin 1) q)) p q := by
  unfold k1_pay1
  simp only [shapeCast_self]
  exact kernel_entry mat1 _ _ _ _ _ _ p q

end Cert.KernelIdeal.Hand

end
-- ==== Proof.Region0.lean ====
/-
  The first kernel launch as one array.

  The launch walks 20 blocks of 5000 rows.  At block t the body reads rows 5000·t … 5000·t + 4999 of the aggregated
  features and of the node features, the two whole weight matrices and the whole bias row, and writes rows
  5000·t … 5000·t + 4999 of the result.  An entry of the two-term layer depends on one row of each left factor only, so what
  block t writes back is block t of the layer of the whole arrays; the 20 blocks tile the 100000 rows, so the result array
  ends holding that layer (followed by the maximum with zero), whatever the arrays held when the launch began.
-/
import proofs.«169631_j38697655336972_1_alg».proof.Proof.Gen.KernelIdeal.Frame
import proofs.«169631_j38697655336972_1_alg».proof.Proof.Payload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.Lib.TwoTermLayer
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the row blocks move with t, the weights and the bias stay. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregate's block t is row 5000·t + p of the aggregate. -/
theorem blk0_0 (c : Dev nD) (t : Fin cfg0.N) (p : Fin 5000) (k : Fin 128) (P : Fin 100000) (hP : P.val = 5000 * t.val + p.val) :
    (iblk0 V c 0 t : Vec Ideal S5000x128 .f32) (ix2 p k) = (V c main_v22 : Vec Ideal S100000x128 .f32) (ix2 P k) := by
  obtain ⟨e0, e1, -⟩ := index0 t
  unfold iblk0
  rw [View.read_apply]
  show V c main_v22 _ = V c main_v22 _
  refine congrArg (V c main_v22) (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- Row p of the features' block t is row 5000·t + p of the features. -/
theorem blk0_1 (c : Dev nD) (t : Fin cfg0.N) (p : Fin 5000) (k : Fin 128) (P : Fin 100000) (hP : P.val = 5000 * t.val + p.val) :
    (iblk0 V c 1 t : Vec Ideal S5000x128 .f32) (ix2 p k) = (V c main_arg0 : Vec Ideal S100000x128 .f32) (ix2 P k) := by
  obtain ⟨-, -, e0, e1, -⟩ := index0 t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = P.val; omega
  | ⟨1, _⟩ => show win0_1.index t (1 : Fin 2) * 128 + 1 * k.val = k.val; omega

/-- The first weight block is the whole matrix at every point. -/
theorem blk0_2 (c : Dev nD) (t : Fin cfg0.N) (k : Fin 128) (q : Fin 128) :
    (iblk0 V c 2 t : Vec Ideal S128x128 .f32) (ix2 k q) = (V c main_v23 : Vec Ideal S128x128 .f32) (ix2 k q) := by
  obtain ⟨-, -, -, -, e0, e1, -⟩ := index0 t
  unfold iblk0
  rw [View.read_apply]
  show V c main_v23 _ = V c main_v23 _
  refine congrArg (V c main_v23) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the second. -/
theorem blk0_3 (c : Dev nD) (t : Fin cfg0.N) (k : Fin 128) (q : Fin 128) :
    (iblk0 V c 3 t : Vec Ideal S128x128 .f32) (ix2 k q) = (V c main_v24 : Vec Ideal S128x128 .f32) (ix2 k q) := by
  obtain ⟨-, -, -, -, -, -, e0, e1, -⟩ := index0 t
  unfold iblk0
  rw [View.read_apply]
  show V c main_v24 _ = V c main_v24 _
  refine congrArg (V c main_v24) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias block is the whole bias row at every point. -/
theorem blk0_4 (c : Dev nD) (t : Fin cfg0.N) (q : Fin 128) :
    (iblk0 V c 4 t : Vec Ideal S1x128 .f32) (ix2 (0 : Fin 1) q) = (V c main_v25 : Vec Ideal S1x128 .f32) (ix2 (0 : Fin 1) q) := by
  obtain ⟨-, -, -, -, -, -, -, -, e0, e1, -⟩ := index0 t
  unfold iblk0
  rw [View.read_apply]
  show V c main_v25 _ = V c main_v25 _
  refine congrArg (V c main_v25) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The first layer of the arrays as the launch finds them: aggregate·Wl + features·Wr + bias, then the maximum with zero. -/
def hidden (c : Dev nD) : FVec Ideal S100000x128 .f32 :=
  rectified (V c main_v22 : Vec Ideal S100000x128 .f32) (V c main_arg0 : Vec Ideal S100000x128 .f32)
    (V c main_v23 : Vec Ideal S128x128 .f32) (V c main_v24 : Vec Ideal S128x128 .f32)
    (fun q => (V c main_v25 : Vec Ideal S1x128 .f32) (ix2 (0 : Fin 1) q))

/-- What point t writes back is block t of that layer. -/
theorem flushed0 (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  funext y
  obtain ⟨p, q, rfl⟩ : ∃ (p : Fin 5000) (q : Fin 128), y = ix2 p q := ⟨y 0, y 1, eq_ix2 y⟩
  obtain ⟨-, -, -, -, -, -, -, -, -, -, e0, e1⟩ := index0 t
  have hN : cfg0.N = 20 := N_0
  have hP : 5000 * t.val + p.val < 100000 := by have := t.isLt; have := p.isLt; omega
  have hi : ((cfg0.win 5).blk t).view.emb (ix2 p q) = ix2 (⟨5000 * t.val + p.val, hP⟩ : Fin 100000) q :=
    funext fun a => Fin.ext (by
      match a with
      | ⟨0, _⟩ => show win0_5.index t (0 : Fin 2) * 5000 + 1 * p.val = 5000 * t.val + p.val; omega
      | ⟨1, _⟩ => show win0_5.index t (1 : Fin 2) * 128 + 1 * q.val = q.val; omega)
  show k0_pay1 (iblk0 V c 0 t) (iblk0 V c 1 t) (iblk0 V c 2 t) (iblk0 V c 3 t) (iblk0 V c 4 t) (ix2 p q)
    = hidden V c (((cfg0.win 5).blk t).view.emb (ix2 p q))
  rw [hi]
  refine (pay0_entry _ _ _ _ _ p q).trans ?_
  refine congrArg₂ max ?_ rfl
  exact pre_congr _ _ _ _ _ _ _ _ _ _ p ⟨_, hP⟩ q q (fun k => blk0_0 V c t p k _ rfl) (fun k => blk0_1 V c t p k _ rfl)
    (fun k => blk0_2 V c t k q) (fun k => blk0_3 V c t k q) (blk0_4 V c t q)

/-- An entry of the result array is in point t's block iff its row is among the block's 5000 rows. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Every entry is in the block of the point that owns its row: row r belongs to point r / 5000. -/
theorem cover0 (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := index0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The result array after the launch is the first layer of the arrays the launch found. -/
theorem arr0 (c : Dev nD) : (dat0 V c).arrAt 5 cfg0.N = hidden V c :=
  (dat0 V c).arrAt_eq_of_cover 5 (hidden V c) (fun t _ => flushed0 V c t) cover0

end Cert.KernelIdeal.Hand

end
-- ==== Proof.Region1.lean ====
/-
  The second kernel launch as one array.

  The launch walks 20 blocks of 5000 rows.  At block t the body reads rows 5000·t … 5000·t + 4999 of the aggregated
  hidden features and of the hidden features, the two whole weight matrices and the whole bias row, and writes rows
  5000·t … 5000·t + 4999 of the result.  What block t writes back is block t of the two-term layer of the whole arrays; the
  20 blocks tile the 100000 rows, so the result array ends holding that layer, whatever the arrays held when the launch began.
-/
import proofs.«169631_j38697655336972_1_alg».proof.Proof.Gen.KernelIdeal.Frame
import proofs.«169631_j38697655336972_1_alg».proof.Proof.Payload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.Lib.TwoTermLayer
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- Where each window's block sits at grid point t: the row blocks move with t, the weights and the bias stay. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregate's block t is row 5000·t + p of the aggregate. -/
theorem blk1_0 (c : Dev nD) (t : Fin cfg1.N) (p : Fin 5000) (k : Fin 128) (P : Fin 100000) (hP : P.val = 5000 * t.val + p.val) :
    (iblk1 V c 0 t : Vec Ideal S5000x128 .f32) (ix2 p k) = (V c main_v38 : Vec Ideal S100000x128 .f32) (ix2 P k) := by
  obtain ⟨e0, e1, -⟩ := index1 t
  unfold iblk1
  rw [View.read_apply]
  show V c main_v38 _ = V c main_v38 _
  refine congrArg (V c main_v38) (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- Row p of the hidden features' block t is row 5000·t + p of the hidden features. -/
theorem blk1_1 (c : Dev nD) (t : Fin cfg1.N) (p : Fin 5000) (k : Fin 128) (P : Fin 100000) (hP : P.val = 5000 * t.val + p.val) :
    (iblk1 V c 1 t : Vec Ideal S5000x128 .f32) (ix2 p k) = (V c main_v26 : Vec Ideal S100000x128 .f32) (ix2 P k) := by
  obtain ⟨-, -, e0, e1, -⟩ := index1 t
  unfold iblk1
  rw [View.read_apply]
  show V c main_v26 _ = V c main_v26 _
  refine congrArg (V c main_v26) (funext fun a => Fin.ext ?_)
  match a with
  | ⟨0, _⟩ => show win1_1.index t (0 : Fin 2) * 5000 + 1 * p.val = P.val; omega
  | ⟨1, _⟩ => show win1_1.index t (1 : Fin 2) * 128 + 1 * k.val = k.val; omega

/-- The first weight block is the whole matrix at every point. -/
theorem blk1_2 (c : Dev nD) (t : Fin cfg1.N) (k : Fin 128) (q : Fin 64) :
    (iblk1 V c 2 t : Vec Ideal S128x64 .f32) (ix2 k q) = (V c main_v39 : Vec Ideal S128x64 .f32) (ix2 k q) := by
  obtain ⟨-, -, -, -, e0, e1, -⟩ := index1 t
  unfold iblk1
  rw [View.read_apply]
  show V c main_v39 _ = V c main_v39 _
  refine congrArg (V c main_v39) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- So is the second. -/
theorem blk1_3 (c : Dev nD) (t : Fin cfg1.N) (k : Fin 128) (q : Fin 64) :
    (iblk1 V c 3 t : Vec Ideal S128x64 .f32) (ix2 k q) = (V c main_v40 : Vec Ideal S128x64 .f32) (ix2 k q) := by
  obtain ⟨-, -, -, -, -, -, e0, e1, -⟩ := index1 t
  unfold iblk1
  rw [View.read_apply]
  show V c main_v40 _ = V c main_v40 _
  refine congrArg (V c main_v40) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- The bias block is the whole bias row at every point. -/
theorem blk1_4 (c : Dev nD) (t : Fin cfg1.N) (q : Fin 64) :
    (iblk1 V c 4 t : Vec Ideal S1x64 .f32) (ix2 (0 : Fin 1) q) = (V c main_v41 : Vec Ideal S1x64 .f32) (ix2 (0 : Fin 1) q) := by
  obtain ⟨-, -, -, -, -, -, -, -, e0, e1, -⟩ := index1 t
  unfold iblk1
  rw [View.read_apply]
  show V c main_v41 _ = V c main_v41 _
  refine congrArg (V c main_v41) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The second layer of the arrays as the launch finds them: aggregate·Wl + hidden·Wr + bias. -/
def output (c : Dev nD) : FVec Ideal S100000x64 .f32 :=
  linear (V c main_v38 : Vec Ideal S100000x128 .f32) (V c main_v26 : Vec Ideal S100000x128 .f32)
    (V c main_v39 : Vec Ideal S128x64 .f32) (V c main_v40 : Vec Ideal S128x64 .f32)
    (fun q => (V c main_v41 : Vec Ideal S1x64 .f32) (ix2 (0 : Fin 1) q))

/-- What point t writes back is block t of that layer. -/
theorem flushed1 (c : Dev nD) (t : Fin cfg1.N) :
    (dat1 V c).flushed 5 t = ((cfg1.win 5).blk t).view.read (Elt Ideal) (output V c) := by
  show (cfg1.win 5).cut (grid1.coords t) ((dat1 V c).after 5 t) = _
  rw [after1_5]
  unfold out1_5
  rw [View.canon_unit_zero zero_offsets1]
  simp only [View.ld_unit_zero (S := S5000x128) zero_offsets1, View.ld_unit_zero (S := S128x64) zero_offsets1,
    View.ld_unit_zero (S := S1x64) zero_offsets1]
  funext y
  obtain ⟨p, q, rfl⟩ : ∃ (p : Fin 5000) (q : Fin 64), y = ix2 p q := ⟨y 0, y 1, eq_ix2 y⟩
  obtain ⟨-, -, -, -, -, -, -, -, -, -, e0, e1⟩ := index1 t
  have hN : cfg1.N = 20 := N_1
  have hP : 5000 * t.val + p.val < 100000 := by have := t.isLt; have := p.isLt; omega
  have hi : ((cfg1.win 5).blk t).view.emb (ix2 p q) = ix2 (⟨5000 * t.val + p.val, hP⟩ : Fin 100000) q :=
    funext fun a => Fin.ext (by
      match a with
      | ⟨0, _⟩ => show win1_5.index t (0 : Fin 2) * 5000 + 1 * p.val = 5000 * t.val + p.val; omega
      | ⟨1, _⟩ => show win1_5.index t (1 : Fin 2) * 64 + 1 * q.val = q.val; omega)
  show k1_pay1 (iblk1 V c 0 t) (iblk1 V c 1 t) (iblk1 V c 2 t) (iblk1 V c 3 t) (iblk1 V c 4 t) (ix2 p q)
    = output V c (((cfg1.win 5).blk t).view.emb (ix2 p q))
  rw [hi]
  refine (pay1_entry _ _ _ _ _ p q).trans ?_
  exact pre_congr _ _ _ _ _ _ _ _ (fun q => (iblk1 V c 4 t : Vec Ideal S1x64 .f32) (ix2 (0 : Fin 1) q))
    (fun q => (V c main_v41 : Vec Ideal S1x64 .f32) (ix2 (0 : Fin 1) q)) p ⟨_, hP⟩ q q (fun k => blk1_0 V c t p k _ rfl) (fun k => blk1_1 V c t p k _ rfl)
    (fun k => blk1_2 V c t k q) (fun k => blk1_3 V c t k q) (blk1_4 V c t q)

/-- An entry of the result array is in point t's block iff its row is among the block's 5000 rows. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v42).slice (win1_5.rect t)).set ↔ _
  rw [View.set_slice_whole, Rect.mem_set_unit]
  exact Iff.rfl

/-- Every entry is in the block of the point that owns its row: row r belongs to point r / 5000. -/
theorem cover1 (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := index1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The result array after the launch is the second layer of the arrays the launch found. -/
theorem arr1 (c : Dev nD) : (dat1 V c).arrAt 5 cfg1.N = output V c :=
  (dat1 V c).arrAt_eq_of_cover 5 (output V c) (fun t _ => flushed1 V c t) cover1

end Cert.KernelIdeal.Hand

end
-- ==== Proof.KernelRun.lean ====
/-
  The kernel program's run with its result named.

  The program is a stretch of host operations, the first launch, a second stretch, the second launch.  The buffer contents
  at the four boundaries are a fold from the launch memory; the run ends with every unscoped buffer at the last boundary's
  contents, so the result buffer holds what the second launch's write-backs leave in it, and the arguments are as launched.
-/
import proofs.«169631_j38697655336972_1_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run_boundary : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.KernelHost.lean ====
/-
  The kernel program's two stretches of host operations, read at the buffers the launches and the second stretch use.

  Before the first launch the host slices the edge list into source and destination indices, counts and clamps the
  in-degrees, gathers and adds the feature rows into their destinations, divides by the degrees, transposes the two
  first-layer weight matrices and lays the first bias out as a row.  Between the launches it repeats the gather, the
  scatter-add and the division on the first launch's result, reusing the indices and the degrees, and prepares the
  second-layer weights and bias.  Each buffer read here is the reference's own stage function of the same inputs:
  the operations are the same, in the same order.
-/
import proofs.«169631_j38697655336972_1_alg».proof.Proof.Gen.KernelIdeal.Frame
import proofs.«169631_j38697655336972_1_alg».proof.Proof.Gen.ReferenceIdeal.Read
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable {F : FTy → Type} [FloatOps F] (W : Valuation τ sig (Elt F))

/-! ## Before the first launch -/

/-- The source indices. -/
theorem pre_src : (StableHlo.after (hostOps0 (F := F)) W (Proc.devRef .tc main_v1) : (⟨S1600000, .i32⟩ : BufTy).Contents (Elt F))
    = val_main_v1 (F := F) (W (Proc.devRef .tc main_arg1)) := by
  after_results; rfl

/-- The destination indices. -/
theorem pre_dst : (StableHlo.after (hostOps0 (F := F)) W (Proc.devRef .tc main_v3) : (⟨S1600000, .i32⟩ : BufTy).Contents (Elt F))
    = val_main_v3 (F := F) (W (Proc.devRef .tc main_arg1)) := by
  after_results; rfl

/-- The clamped in-degrees, as a column. -/
theorem pre_deg : (StableHlo.after (hostOps0 (F := F)) W (Proc.devRef .tc main_v10) : (⟨S100000x1, .f32⟩ : BufTy).Contents (Elt F))
    = val_main_v20 (F := F) (W (Proc.devRef .tc main_arg1)) := by
  after_results; rfl

set_option maxHeartbeats 4000000 in
/-- The mean aggregate of the features. -/
theorem pre_agg : (StableHlo.after (hostOps0 (F := F)) W (Proc.devRef .tc main_v22) : (⟨S100000x128, .f32⟩ : BufTy).Contents (Elt F))
    = val_main_v22 (F := F) (W (Proc.devRef .tc main_arg0)) (W (Proc.devRef .tc main_arg1)) := by
  after_results_simp; rfl

/-- The first transposed weight matrix. -/
theorem pre_wl : (StableHlo.after (hostOps0 (F := F)) W (Proc.devRef .tc main_v23) : (⟨S128x128, .f32⟩ : BufTy).Contents (Elt F))
    = val_main_v23 (F := F) (W (Proc.devRef .tc main_arg2)) := by
  after_results; rfl

/-- The second transposed weight matrix. -/
theorem pre_wr : (StableHlo.after (hostOps0 (F := F)) W (Proc.devRef .tc main_v24) : (⟨S128x128, .f32⟩ : BufTy).Contents (Elt F))
    = val_main_v25 (F := F) (W (Proc.devRef .tc main_arg3)) := by
  after_results; rfl

/-- The bias row at column q is the bias at q. -/
theorem pre_bias (q : Fin 128) : (StableHlo.after (hostOps0 (F := F)) W (Proc.devRef .tc main_v25) : (⟨S1x128, .f32⟩ : BufTy).Contents (Elt F)) (ix2 (0 : Fin 1) q)
    = (W (Proc.devRef .tc main_arg4) : (⟨S128, .f32⟩ : BufTy).Contents (Elt F)) (ix1 q) := by
  after_results
  exact shapeCast_a_1a_apply (W (Proc.devRef .tc main_arg4) : (⟨S128, .f32⟩ : BufTy).Contents (Elt F)) shapeCasts_S128_S1x128 0 q

/-- An argument is as it was. -/
theorem pre_arg0 : StableHlo.after (hostOps0 (F := F)) W (Proc.devRef .tc main_arg0) = W (Proc.devRef .tc main_arg0) := by
  after_results
theorem pre_arg5 : StableHlo.after (hostOps0 (F := F)) W (Proc.devRef .tc main_arg5) = W (Proc.devRef .tc main_arg5) := by
  after_results
theorem pre_arg6 : StableHlo.after (hostOps0 (F := F)) W (Proc.devRef .tc main_arg6) = W (Proc.devRef .tc main_arg6) := by
  after_results
theorem pre_arg7 : StableHlo.after (hostOps0 (F := F)) W (Proc.devRef .tc main_arg7) = W (Proc.devRef .tc main_arg7) := by
  after_results

/-! ## Between the launches -/

set_option maxHeartbeats 4000000 in
/-- The mean aggregate of the first launch's result, when the indices and the degrees are those computed from the edge
    list `e` before the first launch: the same chain, applied to that result. -/
theorem mid_agg (e : (⟨S2x1600000, .i32⟩ : BufTy).Contents (Elt F))
    (h1 : (W (Proc.devRef .tc main_v1) : (⟨S1600000, .i32⟩ : BufTy).Contents (Elt F)) = val_main_v1 (F := F) e)
    (h3 : (W (Proc.devRef .tc main_v3) : (⟨S1600000, .i32⟩ : BufTy).Contents (Elt F)) = val_main_v3 (F := F) e)
    (h10 : (W (Proc.devRef .tc main_v10) : (⟨S100000x1, .f32⟩ : BufTy).Contents (Elt F)) = val_main_v20 (F := F) e) :
    (StableHlo.after (hostOps1 (F := F)) W (Proc.devRef .tc main_v38) : (⟨S100000x128, .f32⟩ : BufTy).Contents (Elt F))
    = val_main_v22 (F := F) (W (Proc.devRef .tc main_v26)) e := by
  after_results_simp
  rw [h1, h3, h10]
  rfl

/-- The first launch's result is untouched. -/
theorem mid_hidden : StableHlo.after (hostOps1 (F := F)) W (Proc.devRef .tc main_v26) = W (Proc.devRef .tc main_v26) := by
  after_results

/-- The first transposed weight matrix of the second layer. -/
theorem mid_wl : (StableHlo.after (hostOps1 (F := F)) W (Proc.devRef .tc main_v39) : (⟨S128x64, .f32⟩ : BufTy).Contents (Elt F))
    = val_main_v51 (F := F) (W (Proc.devRef .tc main_arg5)) := by
  after_results; rfl

/-- The second. -/
theorem mid_wr : (StableHlo.after (hostOps1 (F := F)) W (Proc.devRef .tc main_v40) : (⟨S128x64, .f32⟩ : BufTy).Contents (Elt F))
    = val_main_v53 (F := F) (W (Proc.devRef .tc main_arg6)) := by
  after_results; rfl

/-- The second bias row at column q is the second bias at q. -/
theorem mid_bias (q : Fin 64) : (StableHlo.after (hostOps1 (F := F)) W (Proc.devRef .tc main_v41) : (⟨S1x64, .f32⟩ : BufTy).Contents (Elt F)) (ix2 (0 : Fin 1) q)
    = (W (Proc.devRef .tc main_arg7) : (⟨S64, .f32⟩ : BufTy).Contents (Elt F)) (ix1 q) := by
  after_results
  exact shapeCast_a_1a_apply (W (Proc.devRef .tc main_arg7) : (⟨S64, .f32⟩ : BufTy).Contents (Elt F)) shapeCasts_S64_S1x64 0 q

end Cert.KernelIdeal.Hand

end
-- ==== Proof.Spec.lean ====
/-
  What both programs compute, as one function of the eight arguments.

  Two graph-network layers.  The mean aggregation — gather the source rows, add them into their destination rows, divide
  by the destination's clamped in-degree — is the same chain of host operations in both programs, so it is carried here
  as the reference's own stage function of (features, edge list) and never opened.  The hidden features are the
  two-term layer of (aggregate of x, x) against the transposed first-layer weights plus the first bias, followed by the
  maximum with zero; the result is the two-term layer of (aggregate of hidden, hidden) against the transposed
  second-layer weights plus the second bias.
-/
import proofs.«169631_j38697655336972_1_alg».proof.Proof.Gen.ReferenceIdeal.Read
import proofs.«169631_j38697655336972_1_alg».proof.Proof.LibTwoTermLayer

noncomputable section

namespace Cert.Sage

open Cert.ReferenceIdeal Cert.ReferenceIdeal.Read Idealize.ShloMosaic Idealize.ShloMosaic.TcCoe Idealize.SL.Sem
open Idealize.ShloMosaic.ValueIdx Cert.Lib.TwoTermLayer

/-- The hidden features: max(0, mean-aggregate(x)·W1lᵀ + x·W1rᵀ + b1). -/
def hiddenOf (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) : FVec Ideal S100000x128 .f32 :=
  rectified (val_main_v22 (F := Ideal) x0 x1) x0 (val_main_v23 (F := Ideal) x2) (val_main_v25 (F := Ideal) x3)
    (fun q => x4 (ix1 q))

/-- The result: mean-aggregate(hidden)·W2lᵀ + hidden·W2rᵀ + b2. -/
def resultOf (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S64x128, .f32⟩ : BufTy).Contents (Elt Ideal)) (x7 : (⟨S64, .f32⟩ : BufTy).Contents (Elt Ideal)) : FVec Ideal S100000x64 .f32 :=
  linear (val_main_v22 (F := Ideal) (hiddenOf x0 x1 x2 x3 x4) x1) (hiddenOf x0 x1 x2 x3 x4)
    (val_main_v51 (F := Ideal) x5) (val_main_v53 (F := Ideal) x6) (fun q => x7 (ix1 q))

end Cert.Sage

end
-- ==== Proof.KernelValue.lean ====
/-
  The kernel program's result is the two layers.

  Walking the boundaries back from the end: the result buffer holds what the second launch leaves, the second layer of
  the arrays it found; those are the second stretch's results over the first launch's exit contents — the aggregate of
  the first launch's result with the indices and degrees computed before the first launch, that result itself, and the
  second-layer weights and bias; the first launch's result is the first layer of the arrays it found, which are the first
  stretch's results over the launch memory.
-/
import proofs.«169631_j38697655336972_1_alg».proof.Proof.Region0
import proofs.«169631_j38697655336972_1_alg».proof.Proof.Region1
import proofs.«169631_j38697655336972_1_alg».proof.Proof.KernelRun
import proofs.«169631_j38697655336972_1_alg».proof.Proof.KernelHost
import proofs.«169631_j38697655336972_1_alg».proof.Proof.Spec

noncomputable section

namespace Cert.KernelIdeal.Hand

open Cert.KernelIdeal Cert.KernelIdeal.Gen Idealize.ShloMosaic Idealize.ShloMosaic.TcCoe Idealize.SL.Sem
open Idealize.ShloMosaic.ValueIdx Cert.Lib.TwoTermLayer
open Cert.ReferenceIdeal.Read

variable (m : (ℓ : Loc nD τ sig) → Buf (Elt Ideal) ℓ) (ρ : Dev nD → PrngReg)

/-- The first launch's result is the hidden features of the arguments. -/
theorem hidden_eq (c : Dev nD) :
    (W2 m ρ c (Proc.devRef .tc main_v26) : (⟨S100000x128, .f32⟩ : BufTy).Contents (Elt Ideal))
      = Cert.Sage.hiddenOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (W2_arr m ρ c 5).trans ?_
  refine (arr0 (V1 m ρ) c).trans ?_
  unfold hidden Cert.Sage.hiddenOf
  exact rectified_congr (pre_agg (W0 m ρ c)) (pre_arg0 (W0 m ρ c)) (pre_wl (W0 m ρ c)) (pre_wr (W0 m ρ c))
    (fun q => pre_bias (W0 m ρ c) q)

/-- The program's result buffer ends holding the result of the arguments. -/
theorem result_eq (c : Dev nD) :
    (W4 m ρ c (Proc.devRef .tc main_v42) : (⟨S100000x64, .f32⟩ : BufTy).Contents (Elt Ideal))
      = Cert.Sage.resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  have hH := hidden_eq m ρ c
  have h1 : (W2 m ρ c (Proc.devRef .tc main_v1) : (⟨S1600000, .i32⟩ : BufTy).Contents (Elt Ideal)) = val_main_v1 (F := Ideal) (m ((c.tc : Thread nD τ).loc main_arg1)) :=
    (W2_of_ne m ρ c main_v1 (by decide)).trans (pre_src (W0 m ρ c))
  have h3 : (W2 m ρ c (Proc.devRef .tc main_v3) : (⟨S1600000, .i32⟩ : BufTy).Contents (Elt Ideal)) = val_main_v3 (F := Ideal) (m ((c.tc : Thread nD τ).loc main_arg1)) :=
    (W2_of_ne m ρ c main_v3 (by decide)).trans (pre_dst (W0 m ρ c))
  have h10 : (W2 m ρ c (Proc.devRef .tc main_v10) : (⟨S100000x1, .f32⟩ : BufTy).Contents (Elt Ideal)) = val_main_v20 (F := Ideal) (m ((c.tc : Thread nD τ).loc main_arg1)) :=
    (W2_of_ne m ρ c main_v10 (by decide)).trans (pre_deg (W0 m ρ c))
  have h5 : W2 m ρ c (Proc.devRef .tc main_arg5) = (m ((c.tc : Thread nD τ).loc main_arg5)) :=
    (W2_of_ne m ρ c main_arg5 (by decide)).trans (pre_arg5 (W0 m ρ c))
  have h6 : W2 m ρ c (Proc.devRef .tc main_arg6) = (m ((c.tc : Thread nD τ).loc main_arg6)) :=
    (W2_of_ne m ρ c main_arg6 (by decide)).trans (pre_arg6 (W0 m ρ c))
  have h7 : W2 m ρ c (Proc.devRef .tc main_arg7) = (m ((c.tc : Thread nD τ).loc main_arg7)) :=
    (W2_of_ne m ρ c main_arg7 (by decide)).trans (pre_arg7 (W0 m ρ c))
  refine (W4_arr m ρ c 5).trans ?_
  refine (arr1 (V3 m ρ) c).trans ?_
  unfold output Cert.Sage.resultOf
  refine linear_congr ?_ ?_ ?_ ?_ ?_
  · refine (mid_agg (W2 m ρ c) (m ((c.tc : Thread nD τ).loc main_arg1)) h1 h3 h10).trans ?_
    exact congrArg (fun h => val_main_v22 (F := Ideal) h (m ((c.tc : Thread nD τ).loc main_arg1))) hH
  · exact (mid_hidden (W2 m ρ c)).trans hH
  · exact (mid_wl (W2 m ρ c)).trans (congrArg (val_main_v51 (F := Ideal)) h5)
  · exact (mid_wr (W2 m ρ c)).trans (congrArg (val_main_v53 (F := Ideal)) h6)
  · intro q
    exact (mid_bias (W2 m ρ c) q).trans (congrFun h7 (ix1 q))

/-- The kernel program's run: it terminates with the result buffer at the result of the arguments and the arguments as
    launched. -/
theorem run : θ_run defs (onTc (τ := τ) (main (F := Ideal))) ⟨m, fun _ => 0, ρ⟩ (fun r => ∀ c : Dev nD,
      r.2.mem ((c.tc : Thread nD τ).loc main_v42)
        = Cert.Sage.resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_boundary m ρ)

end Cert.KernelIdeal.Hand

end
-- ==== Proof.RefValue.lean ====
/-
  The reference's result is the two layers.

  The reference adds two dot_generals and a bias laid out by two broadcasts, applies the maximum with a broadcast zero after
  the first layer, and repeats the mean aggregation on the hidden features with freshly recomputed indices and degrees: the
  recomputed chain is, operation for operation, the first one applied to the hidden features.
-/
import proofs.«169631_j38697655336972_1_alg».proof.Proof.Spec

noncomputable section

namespace Cert.Sage

open Cert.ReferenceIdeal Cert.ReferenceIdeal.Read Idealize.ShloMosaic Idealize.ShloMosaic.TcCoe Idealize.SL.Sem
open Idealize.ShloMosaic.ValueIdx Cert.Lib.DenseLayer Cert.Lib.TwoTermLayer

/-- The reference's first-layer products are plain matrix products. -/
theorem matR0 : IsMatProduct dot_S100000x128_S128x128_S100000x128_1_0_0_1_n_n := ⟨rfl, rfl, rfl, rfl, rfl, rfl⟩
/-- So are its second-layer products. -/
theorem matR1 : IsMatProduct dot_S100000x128_S128x64_S100000x64_1_0_0_1_n_n := ⟨rfl, rfl, rfl, rfl, rfl, rfl⟩

/-- The reference's hidden features are the first layer. -/
theorem ref_hidden (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v31 (F := Ideal) x0 x1 x2 x3 x4 = hiddenOf x0 x1 x2 x3 x4 := by
  funext i
  obtain ⟨p, q, rfl⟩ : ∃ (p : Fin 100000) (q : Fin 128), i = ix2 p q := ⟨i 0, i 1, eq_ix2 i⟩
  unfold val_main_v31 val_main_v30 val_main_v27 val_main_v24 val_main_v26 val_main_v29 val_main_v28
  refine (maximumf_apply _ _ _).trans ?_
  refine congrArg₂ max ?_ rfl
  exact host_entry matR0 _ _ _ _ _ _ _ p q

/-- The second aggregation is the first one's chain applied to the hidden features. -/
theorem ref_agg2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v50 (F := Ideal) x0 x1 x2 x3 x4 = val_main_v22 (F := Ideal) (val_main_v31 (F := Ideal) x0 x1 x2 x3 x4) x1 := rfl

/-- The reference's result is the second layer of the hidden features. -/
theorem ref_result (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S64x128, .f32⟩ : BufTy).Contents (Elt Ideal)) (x7 : (⟨S64, .f32⟩ : BufTy).Contents (Elt Ideal)) :
    val_main_v58 (F := Ideal) x0 x1 x2 x3 x4 x5 x6 x7 = resultOf x0 x1 x2 x3 x4 x5 x6 x7 := by
  funext i
  obtain ⟨p, q, rfl⟩ : ∃ (p : Fin 100000) (q : Fin 64), i = ix2 p q := ⟨i 0, i 1, eq_ix2 i⟩
  unfold val_main_v58 val_main_v55 val_main_v52 val_main_v54 val_main_v57 val_main_v56
  refine (host_entry matR1 _ _ _ _ _ _ _ p q).trans ?_
  rw [ref_agg2, ref_hidden]
  rfl

end Cert.Sage

end
-- ==== Proof.lean ====
/-
  Two GraphSAGE layers with mean aggregation: a program with two kernel launches against its host-only reference, equal
  over the extended reals.

  Both programs gather the source rows of the features along the edge list, add them into their destination rows and
  divide by the clamped in-degree; both then form  aggregate·Wlᵀ + features·Wrᵀ + b, take the maximum with zero after
  the first layer, and repeat on the hidden features with the second layer's weights.  The kernel program does the
  dense part of each layer in a launch over 20 blocks of 5000 rows, with the weights transposed and the bias laid out as a
  row on the host beforehand, and computes the degrees once; the reference does everything on the host and recomputes the
  indices and the degrees for the second layer.  At exact arithmetic a change of float format is the identity and a
  product into a zero accumulator is the host's dot_general, so entry (p, q) of either result is the same sum of the
  same terms in the same grouping: no law of the extended reals is used, and the inputs' finiteness is not needed.

  The three frames: the two kernel programs' are generated; the reference's is its generated run with the result
  dropped.  The idealization rewrote nothing.  The value claim puts the kernel program's run (the result buffer read back
  through the two launches and the two host stretches) beside the reference's generated run, both at the one function
  `Cert.Sage.resultOf` of the eight arguments.
-/
import proofs.«169631_j38697655336972_1_alg».proof.Defs
import proofs.«169631_j38697655336972_1_alg».proof.Proof.Gen.Kernel
import proofs.«169631_j38697655336972_1_alg».proof.Proof.Gen.Kernel.Skeleton
import proofs.«169631_j38697655336972_1_alg».proof.Proof.Gen.Kernel.Launch
import proofs.«169631_j38697655336972_1_alg».proof.Proof.Gen.Kernel.Points
import proofs.«169631_j38697655336972_1_alg».proof.Proof.Gen.Kernel.Frame
import proofs.«169631_j38697655336972_1_alg».proof.Proof.Gen.KernelIdeal
import proofs.«169631_j38697655336972_1_alg».proof.Proof.Gen.KernelIdeal.Skeleton
import proofs.«169631_j38697655336972_1_alg».proof.Proof.Gen.KernelIdeal.Launch
import proofs.«169631_j38697655336972_1_alg».proof.Proof.Gen.KernelIdeal.Points
import proofs.«169631_j38697655336972_1_alg».proof.Proof.Gen.KernelIdeal.Frame
import proofs.«169631_j38697655336972_1_alg».proof.Proof.Gen.ReferenceIdeal
import proofs.«169631_j38697655336972_1_alg».proof.Proof.Gen.Pre_finite_inputs
import proofs.«169631_j38697655336972_1_alg».proof.Proof.Gen.ReferenceIdeal.Run
import proofs.«169631_j38697655336972_1_alg».proof.Proof.Gen.ReferenceIdeal.Read
import proofs.«169631_j38697655336972_1_alg».proof.Proof.KernelValue
import proofs.«169631_j38697655336972_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result buffers at the two layers of the (agreeing) arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.Sage.ref_result]
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
